-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S10000x128 : Shape := ⟨2, ![10000, 128]⟩
abbrev S128 : Shape := ⟨1, ![128]⟩
abbrev S64 : Shape := ⟨1, ![64]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S500000x128 .f32) (main_arg1 : FVec F S10000x128 .f32) (main_arg2 : FVec F S128 .f32) (main_arg3 : IVec S64 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S500000x128 : Shape := ⟨2, ![500000, 128]⟩
abbrev S10000x128 : Shape := ⟨2, ![10000, 128]⟩
abbrev S128 : Shape := ⟨1, ![128]⟩
abbrev S64 : Shape := ⟨1, ![64]⟩
abbrev S1 : Shape := ⟨1, ![1]⟩
abbrev S_ : Shape := ⟨0, ![]⟩
abbrev S1x128 : Shape := ⟨2, ![1, 128]⟩
abbrev S128x1 : Shape := ⟨2, ![128, 1]⟩
abbrev S500000x1 : Shape := ⟨2, ![500000, 1]⟩
abbrev S10000x1 : Shape := ⟨2, ![10000, 1]⟩

abbrev nBuf : Space → Nat
  | .hbm => 17
  | .vmem => 5
  | .smem => 0
  | _ => 0

abbrev bufTy : (tb : Table) → Fin (tcTables nBuf tb) → BufTy
  | .hbm, ⟨0, _⟩ => ⟨S500000x128, .f32⟩
  | .hbm, ⟨1, _⟩ => ⟨S10000x128, .f32⟩
  | .hbm, ⟨2, _⟩ => ⟨S128, .f32⟩
  | .hbm, ⟨3, _⟩ => ⟨S64, .i32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S128x1, .f32⟩
  | .hbm, ⟨16, _⟩ => ⟨S500000x1, .f32⟩
  | .local _ .vmem, ⟨0, _⟩ => ⟨S10000x128, .f32⟩
  | .local _ .vmem, ⟨1, _⟩ => ⟨S10000x128, .f32⟩
  | .local _ .vmem, ⟨2, _⟩ => ⟨S128x1, .f32⟩
  | .local _ .vmem, ⟨3, _⟩ => ⟨S10000x1, .f32⟩
  | .local _ .vmem, ⟨4, _⟩ => ⟨S10000x1, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S64_S1_1 : S64.Slices ![1] S1
  shapeCasts_S1_S_ : S1.ShapeCasts S_
  sliceFits_S10000x128_S1x128 : S10000x128.Slices (fun _ => 0) S1x128
  h_S_ : 0 < S_.numel
  bcast_S128_S1x128_1 : S128.BroadcastsInDim S1x128 (![1] : Fin 1 → Fin S1x128.rank)
  transposes_S1x128_S128x1_1_0 : S1x128.Transposes [1, 0] S128x1
  inb_S10000x128_S10000x128_0_0 : ∀ a, (![0, 0] : Fin 2 → Nat) a + S10000x128.size a ≤ S10000x128.size a
  h_S10000x128 : 0 < S10000x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S10000x1_S10000x1_0_0 : ∀ a, (![0, 0] : Fin 2 → Nat) a + S10000x1.size a ≤ S10000x1.size a
  h_S10000x1 : 0 < S10000x1.numel
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S500000x1.size a
  hwx0_2 : ∀ i : grid0.Coords, EltTy.bits .f32 = 32 ∨ (Rect.block (s := S500000x1) S10000x1.size (cc0_transform_2 i) (hinb0_2 i)).WholeWords (EltTy.packing .f32)

variable [Facts₀]

def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x128 : Shape := ⟨2, ![500000, 128]⟩
abbrev S10000x128 : Shape := ⟨2, ![10000, 128]⟩
abbrev S128 : Shape := ⟨1, ![128]⟩
abbrev S64 : Shape := ⟨1, ![64]⟩
abbrev S_ : Shape := ⟨0, ![]⟩
abbrev S64x1 : Shape := ⟨2, ![64, 1]⟩
abbrev S64x128 : Shape := ⟨2, ![64, 128]⟩
abbrev S1x128 : Shape := ⟨2, ![1, 128]⟩
abbrev S500000x64 : Shape := ⟨2, ![500000, 64]⟩
abbrev S500000x1 : Shape := ⟨2, ![500000, 1]⟩

abbrev nBuf : Space → Nat
  | .hbm => 18
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S10000x128, .f32⟩
  | .hbm, ⟨2, _⟩ => ⟨S128, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x128, .f32⟩
  | .hbm, ⟨13, _⟩ => ⟨S1x128, .f32⟩
  | .hbm, ⟨14, _⟩ => ⟨S500000x128, .f32⟩
  | .hbm, ⟨15, _⟩ => ⟨S500000x128, .f32⟩
  | .hbm, ⟨16, _⟩ => ⟨S500000x64, .f32⟩
  | .hbm, ⟨17, _⟩ => ⟨S500000x1, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  slices_S500000x64_S500000x1_0_1 : S500000x64.Slices ![0, 1] S500000x1
  gather_S10000x128_S64x1_S64x128_1_0_n_n_0_1_1128_wf : GatherDims.WF S10000x128 S64x1 S64x128 [1] [0] [] [0] [] 1 ![1, 128]
  dot_S500000x128_S64x128_S500000x64_1_1_0_0_n_n_wf : DotDims.WF S500000x128 S64x128 S500000x64 [1] [1] [0] [0] [] []

variable [Facts₀]

def gather_S10000x128_S64x1_S64x128_1_0_n_n_0_1_1128 : GatherDims S10000x128 S64x1 S64x128 where
  offsetDims := [1]
  collapsedSliceDims := [0]
  operandBatchingDims := []
  startIndicesBatchingDims := []
  startIndexMap := [0]
  indexVectorDim := 1
  sliceSizes := ![1, 128]
  wf := gather_S10000x128_S64x1_S64x128_1_0_n_n_0_1_1128_wf
def dot_S500000x128_S64x128_S500000x64_1_1_0_0_n_n : DotDims S500000x128 S64x128 S500000x64 where
  lhsContracting := [1]
  rhsContracting := [1]
  lhsNonContracting := [0]
  rhsNonContracting := [0]
  lhsBatch := []
  rhsBatch := []
  wf := dot_S500000x128_S64x128_S500000x64_1_1_0_0_n_n_wf

class Facts : Prop extends Facts₀ where

variable [Facts]
-- ==== Proof.RegionRunBits.lean ====
/-
  The launch of the one kernel region of `Kernel`, at any float instance `F`.

  @main is twelve host operations and then one region on a grid of 50 points. The host operations compute, from
  the index list, ONE row number, cut that row out of the table of bases, scale it entry by entry and turn it into
  a column of 128 weights; none of them writes an argument array. The region streams the 500000 x 128 array of
  targets through the core in 50 blocks of 10000 rows: at point `t` the body loads rows 10000·t … 10000·t + 9999
  and the weight column (fetched once, at the first point, and kept), multiplies the block of rows by the column on
  the matrix unit into a zero accumulator, and stores the 10000 products as block `t` of the result. The body also
  loads its output buffer before storing into it; the loaded value is not used.

  What is proved here: the body's triple (the output buffer ends at the canon of the body's single store, a function
  of the two input blocks alone), the per-point proof data of the pipeline, the body obligation, and from the library's
  frame run (`Pipeline.θ_run_frame`) the run of @main to a state in which every array of the pipeline holds what the
  proof data computes and every other buffer what it held when the region was entered; then the four argument arrays
  are read back unchanged.
-/
import proofs.«128458_j43052752175485_2_alg».proof.Proof.Gen.Kernel.Launch
import proofs.«128458_j43052752175485_2_alg».proof.Proof.Gen.Kernel.Skeleton
import proofs.«128458_j43052752175485_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.RegionRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the twelve host operations. -/
abbrev atEntry (c : Dev nD) (b : Ref sig .tc) : Buf (Elt F) ((c : Thread nD τ).loc b) :=
  StableHlo.after hostOps0 (fun b => m (c, b)) b

/-- No host operation allocates anything. -/
theorem host_fresh : (hostOps0 : List (HloOp τ sig (Elt F))).Forall fun op => op.fresh = ∅ := by
  simp only [List.Forall]; repeat' constructor

/-- @main is its host operations and then the region, which is entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub host_fresh main_chain

/-- The host operations write the intermediate buffers `main_v0` … `main_v8` and the three constants only, so each
    argument array is found as launched. -/
theorem entry_of_not_written (c : Dev nD) (b : Ref sig .tc)
    (hb : b ≠ main_v0 ∧ b ≠ main_v1 ∧ b ≠ main_c ∧ b ≠ main_v2 ∧ b ≠ main_c_0 ∧ b ≠ main_v3 ∧ b ≠ main_v4 ∧ b ≠ main_c_1
      ∧ b ≠ main_v5 ∧ b ≠ main_v6 ∧ b ≠ main_v7 ∧ b ≠ main_v8) :
    atEntry m c b = m ((c : Thread nD τ).loc b) := by
  obtain ⟨h0, h1, h2, h3, h4, h5, h6, h7, h8, h9, h10, h11⟩ := hb
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.reshape_writes, StableHlo.unaryIndexed_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11⟩

theorem entry_targets (c : Dev nD) : atEntry m c main_arg0 = m ((c : Thread nD τ).loc main_arg0) :=
  entry_of_not_written m c main_arg0 (by decide)
theorem entry_bases (c : Dev nD) : atEntry m c main_arg1 = m ((c : Thread nD τ).loc main_arg1) :=
  entry_of_not_written m c main_arg1 (by decide)
theorem entry_scales (c : Dev nD) : atEntry m c main_arg2 = m ((c : Thread nD τ).loc main_arg2) :=
  entry_of_not_written m c main_arg2 (by decide)
theorem entry_indices (c : Dev nD) : atEntry m c main_arg3 = m ((c : Thread nD τ).loc main_arg3) :=
  entry_of_not_written m c main_arg3 (by decide)

/-! ## A window's block at a grid point -/

/-- Window `w`'s block at point `t`, read off the window's array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-- The buffer of the rows' window holds block `t` of the targets when the body starts at `t` (it is fetched at every
    point), for any proof data over the entry contents whose body leaves that buffer alone. -/
theorem rows_held_of {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- The buffer of the weights' window holds the weight column at every point: fetched at the first, and at the later
    points, where its block index has not moved, still there. -/
theorem weights_held_of {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-! ## The body -/

/-- The three whole-buffer rectangles the body reads and writes through. -/
abbrev rectRows : Rect S10000x128 := Rect.unit (s := S10000x128) ![0, 0] S10000x128.size inb_S10000x128_S10000x128_0_0
abbrev rectWeights : Rect S128x1 := Rect.unit (s := S128x1) ![0, 0] S128x1.size inb_S128x1_S128x1_0_0
abbrev rectOut : Rect S10000x1 := Rect.unit (s := S10000x1) ![0, 0] S10000x1.size inb_S10000x1_S10000x1_0_0

/-- What the output buffer holds after the body, as a function of the two input buffers' contents: the body's one
    store, of the block of rows times the weight column, laid over the buffer. -/
def productBlock (rows : Vec F S10000x128 .f32) (weights : Vec F S128x1 .f32) : Vec F S10000x1 .f32 :=
  View.canon [⟨rectOut, k0_pay1 (View.ld rows rectRows) (View.ld weights rectWeights)⟩]

/-- The one store covers the whole output buffer. -/
theorem store_covers (p : Vec F S10000x1 .f32) (y : S10000x1.Idx) :
    ∃ pc ∈ ([⟨rectOut, p⟩] : List (View.Piece (Elt F) S10000x1 .f32)), y ∈ pc.1.set :=
  View.cover_of_tiled [⟨rectOut, p⟩] S10000x1.size (by rfl) y

set_option maxHeartbeats 1000000 in
/-- The body's triple on whole buffers: from the rows' buffer at `rows`, the weights' at `weights` and the output's
    at anything, it runs to the end leaving the two inputs as they were and the output at `productBlock rows weights`. -/
theorem body_triple (c : Dev nD) (E : Set ℕ) (i : grid0.Coords)
    (arg1 : Memref sig .tc .vmem S10000x128 .f32) (harg1 : arg1.IsWhole)
    (arg2 : Memref sig .tc .vmem S128x1 .f32) (harg2 : arg2.IsWhole)
    (arg3 : Memref sig .tc .vmem S10000x1 .f32) (harg3 : arg3.IsWhole)
    (rows : Vec F S10000x128 .f32) (weights : Vec F S128x1 .f32) (K : PUnit → sProp 𝕄) :
    iprop(owns (c : Thread nD τ) arg1 fullShare rows ∗ owns (c : Thread nD τ) arg2 fullShare weights
        ∗ (∃ d, owns (c : Thread nD τ) arg3 fullShare d)
        ∗ (iprop(owns (c : Thread nD τ) arg1 fullShare rows ∗ owns (c : Thread nD τ) arg2 fullShare weights
            ∗ owns (c : Thread nD τ) arg3 fullShare (productBlock rows weights)) -∗ K ⟨⟩))
      ⊢ wp frame (wpE (defs₀ (F := F)) Variants.none c none) E (cc0__recompose_kernel i arg1 harg1 arg2 harg2 arg3 harg3) K := by
  simp only [cc0__recompose_kernel_eq_skeleton]; unfold cc0__recompose_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- Per core: the arrays as the region finds them; after the body at point `t` the two input buffers at their
    blocks and the output buffer at the product of those blocks; the invariant the scoped rest and the generator
    register, untouched; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after_rows (c : Dev nD) (t : Fin cfg0.N) : (pdata m 0 c).after 0 t = blockAt m c 0 t := by dsimp only [pdata]
theorem after_weights (c : Dev nD) (t : Fin cfg0.N) : (pdata m 0 c).after 1 t = blockAt m c 1 t := by dsimp only [pdata]
theorem after_out (c : Dev nD) (t : Fin cfg0.N) :
    (pdata m 0 c).after 2 t = productBlock (blockAt m c 0 t) (blockAt m c 1 t) := by dsimp only [pdata]

theorem rows_held (c : Dev nD) (t : Fin cfg0.N) (d) : (pdata m 0 c).before 0 t d = blockAt m c 0 t :=
  rows_held_of m (pdata m 0 c) (pdata_A m c 0) (after_rows m c) t d
theorem weights_held (c : Dev nD) (t : Fin cfg0.N) (d) : (pdata m 0 c).before 1 t d = blockAt m c 1 t :=
  weights_held_of m (pdata m 0 c) (pdata_A m c 1) (after_weights m c) t d

/-! ## The body obligation -/

/-- What the pipeline hands the body at point `t`, the windows one by one, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it takes back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

/-- The body at any point: the input buffers hold their blocks, so the triple applies; the invariant and what the core
    owes pass through unread. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [rows_held, weights_held]
  rw [show (pdata m 0 c).Φ t.succ = (pdata m 0 c).Φ t.castSucc from rfl,
    show (pdata m 0 c).owesAt () t.succ = (pdata m 0 c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (pdata (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of @main terminates, nothing faulting, in a state
    where each array of the pipeline holds what the proof data computes and every other unscoped buffer what it held
    when the region was entered. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := main_to_region m Variants.none) (hA := pdata_A m) (hΦ := fun _ _ => rfl)

/-- The four argument arrays end as launched: the targets are an input window's array, which the pipeline only reads;
    the other three are staged by no window and written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((pdata m 0 c).arrAt_in 0 rfl _).trans ((pdata_A m c 0).trans (entry_targets m c))),
      ((h c).2 main_arg1 (Pipeline.mem_restRefs_of main_arg1 (by decide) (by decide))).trans (entry_bases m c),
      ((h c).2 main_arg2 (Pipeline.mem_restRefs_of main_arg2 (by decide) (by decide))).trans (entry_scales m c),
      ((h c).2 main_arg3 (Pipeline.mem_restRefs_of main_arg3 (by decide) (by decide))).trans (entry_indices m c)⟩)
    (run_main m ρ)

end Cert.Kernel.RegionRun

end
-- ==== Proof.RegionRunIdeal.lean ====
/-
  The launch of the one kernel region of `KernelIdeal`, at any float instance `F`.

  @main is twelve host operations and then one region on a grid of 50 points. The host operations compute, from
  the index list, ONE row number, cut that row out of the table of bases, scale it entry by entry and turn it into
  a column of 128 weights; none of them writes an argument array. The region streams the 500000 x 128 array of
  targets through the core in 50 blocks of 10000 rows: at point `t` the body loads rows 10000·t … 10000·t + 9999
  and the weight column (fetched once, at the first point, and kept), multiplies the block of rows by the column on
  the matrix unit into a zero accumulator, and stores the 10000 products as block `t` of the result. The body also
  loads its output buffer before storing into it; the loaded value is not used.

  What is proved here: the body's triple (the output buffer ends at the canon of the body's single store, a function
  of the two input blocks alone), the per-point proof data of the pipeline, the body obligation, and from the library's
  frame run (`Pipeline.θ_run_frame`) the run of @main to a state in which every array of the pipeline holds what the
  proof data computes and every other buffer what it held when the region was entered; then the four argument arrays
  are read back unchanged.
-/
import proofs.«128458_j43052752175485_2_alg».proof.Proof.Gen.KernelIdeal.Launch
import proofs.«128458_j43052752175485_2_alg».proof.Proof.Gen.KernelIdeal.Skeleton
import proofs.«128458_j43052752175485_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.RegionRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the twelve host operations. -/
abbrev atEntry (c : Dev nD) (b : Ref sig .tc) : Buf (Elt F) ((c : Thread nD τ).loc b) :=
  StableHlo.after hostOps0 (fun b => m (c, b)) b

/-- No host operation allocates anything. -/
theorem host_fresh : (hostOps0 : List (HloOp τ sig (Elt F))).Forall fun op => op.fresh = ∅ := by
  simp only [List.Forall]; repeat' constructor

/-- @main is its host operations and then the region, which is entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub host_fresh main_chain

/-- The host operations write the intermediate buffers `main_v0` … `main_v8` and the three constants only, so each
    argument array is found as launched. -/
theorem entry_of_not_written (c : Dev nD) (b : Ref sig .tc)
    (hb : b ≠ main_v0 ∧ b ≠ main_v1 ∧ b ≠ main_c ∧ b ≠ main_v2 ∧ b ≠ main_c_0 ∧ b ≠ main_v3 ∧ b ≠ main_v4 ∧ b ≠ main_c_1
      ∧ b ≠ main_v5 ∧ b ≠ main_v6 ∧ b ≠ main_v7 ∧ b ≠ main_v8) :
    atEntry m c b = m ((c : Thread nD τ).loc b) := by
  obtain ⟨h0, h1, h2, h3, h4, h5, h6, h7, h8, h9, h10, h11⟩ := hb
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.reshape_writes, StableHlo.unaryIndexed_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11⟩

theorem entry_targets (c : Dev nD) : atEntry m c main_arg0 = m ((c : Thread nD τ).loc main_arg0) :=
  entry_of_not_written m c main_arg0 (by decide)
theorem entry_bases (c : Dev nD) : atEntry m c main_arg1 = m ((c : Thread nD τ).loc main_arg1) :=
  entry_of_not_written m c main_arg1 (by decide)
theorem entry_scales (c : Dev nD) : atEntry m c main_arg2 = m ((c : Thread nD τ).loc main_arg2) :=
  entry_of_not_written m c main_arg2 (by decide)
theorem entry_indices (c : Dev nD) : atEntry m c main_arg3 = m ((c : Thread nD τ).loc main_arg3) :=
  entry_of_not_written m c main_arg3 (by decide)

/-! ## A window's block at a grid point -/

/-- Window `w`'s block at point `t`, read off the window's array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-- The buffer of the rows' window holds block `t` of the targets when the body starts at `t` (it is fetched at every
    point), for any proof data over the entry contents whose body leaves that buffer alone. -/
theorem rows_held_of {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- The buffer of the weights' window holds the weight column at every point: fetched at the first, and at the later
    points, where its block index has not moved, still there. -/
theorem weights_held_of {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-! ## The body -/

/-- The three whole-buffer rectangles the body reads and writes through. -/
abbrev rectRows : Rect S10000x128 := Rect.unit (s := S10000x128) ![0, 0] S10000x128.size inb_S10000x128_S10000x128_0_0
abbrev rectWeights : Rect S128x1 := Rect.unit (s := S128x1) ![0, 0] S128x1.size inb_S128x1_S128x1_0_0
abbrev rectOut : Rect S10000x1 := Rect.unit (s := S10000x1) ![0, 0] S10000x1.size inb_S10000x1_S10000x1_0_0

/-- What the output buffer holds after the body, as a function of the two input buffers' contents: the body's one
    store, of the block of rows times the weight column, laid over the buffer. -/
def productBlock (rows : Vec F S10000x128 .f32) (weights : Vec F S128x1 .f32) : Vec F S10000x1 .f32 :=
  View.canon [⟨rectOut, k0_pay1 (View.ld rows rectRows) (View.ld weights rectWeights)⟩]

/-- The one store covers the whole output buffer. -/
theorem store_covers (p : Vec F S10000x1 .f32) (y : S10000x1.Idx) :
    ∃ pc ∈ ([⟨rectOut, p⟩] : List (View.Piece (Elt F) S10000x1 .f32)), y ∈ pc.1.set :=
  View.cover_of_tiled [⟨rectOut, p⟩] S10000x1.size (by rfl) y

set_option maxHeartbeats 1000000 in
/-- The body's triple on whole buffers: from the rows' buffer at `rows`, the weights' at `weights` and the output's
    at anything, it runs to the end leaving the two inputs as they were and the output at `productBlock rows weights`. -/
theorem body_triple (c : Dev nD) (E : Set ℕ) (i : grid0.Coords)
    (arg1 : Memref sig .tc .vmem S10000x128 .f32) (harg1 : arg1.IsWhole)
    (arg2 : Memref sig .tc .vmem S128x1 .f32) (harg2 : arg2.IsWhole)
    (arg3 : Memref sig .tc .vmem S10000x1 .f32) (harg3 : arg3.IsWhole)
    (rows : Vec F S10000x128 .f32) (weights : Vec F S128x1 .f32) (K : PUnit → sProp 𝕄) :
    iprop(owns (c : Thread nD τ) arg1 fullShare rows ∗ owns (c : Thread nD τ) arg2 fullShare weights
        ∗ (∃ d, owns (c : Thread nD τ) arg3 fullShare d)
        ∗ (iprop(owns (c : Thread nD τ) arg1 fullShare rows ∗ owns (c : Thread nD τ) arg2 fullShare weights
            ∗ owns (c : Thread nD τ) arg3 fullShare (productBlock rows weights)) -∗ K ⟨⟩))
      ⊢ wp frame (wpE (defs₀ (F := F)) Variants.none c none) E (cc0__recompose_kernel i arg1 harg1 arg2 harg2 arg3 harg3) K := by
  simp only [cc0__recompose_kernel_eq_skeleton]; unfold cc0__recompose_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- Per core: the arrays as the region finds them; after the body at point `t` the two input buffers at their
    blocks and the output buffer at the product of those blocks; the invariant the scoped rest and the generator
    register, untouched; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after_rows (c : Dev nD) (t : Fin cfg0.N) : (pdata m 0 c).after 0 t = blockAt m c 0 t := by dsimp only [pdata]
theorem after_weights (c : Dev nD) (t : Fin cfg0.N) : (pdata m 0 c).after 1 t = blockAt m c 1 t := by dsimp only [pdata]
theorem after_out (c : Dev nD) (t : Fin cfg0.N) :
    (pdata m 0 c).after 2 t = productBlock (blockAt m c 0 t) (blockAt m c 1 t) := by dsimp only [pdata]

theorem rows_held (c : Dev nD) (t : Fin cfg0.N) (d) : (pdata m 0 c).before 0 t d = blockAt m c 0 t :=
  rows_held_of m (pdata m 0 c) (pdata_A m c 0) (after_rows m c) t d
theorem weights_held (c : Dev nD) (t : Fin cfg0.N) (d) : (pdata m 0 c).before 1 t d = blockAt m c 1 t :=
  weights_held_of m (pdata m 0 c) (pdata_A m c 1) (after_weights m c) t d

/-! ## The body obligation -/

/-- What the pipeline hands the body at point `t`, the windows one by one, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it takes back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

/-- The body at any point: the input buffers hold their blocks, so the triple applies; the invariant and what the core
    owes pass through unread. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [rows_held, weights_held]
  rw [show (pdata m 0 c).Φ t.succ = (pdata m 0 c).Φ t.castSucc from rfl,
    show (pdata m 0 c).owesAt () t.succ = (pdata m 0 c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (pdata (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of @main terminates, nothing faulting, in a state
    where each array of the pipeline holds what the proof data computes and every other unscoped buffer what it held
    when the region was entered. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := main_to_region m Variants.none) (hA := pdata_A m) (hΦ := fun _ _ => rfl)

/-- The four argument arrays end as launched: the targets are an input window's array, which the pipeline only reads;
    the other three are staged by no window and written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((pdata m 0 c).arrAt_in 0 rfl _).trans ((pdata_A m c 0).trans (entry_targets m c))),
      ((h c).2 main_arg1 (Pipeline.mem_restRefs_of main_arg1 (by decide) (by decide))).trans (entry_bases m c),
      ((h c).2 main_arg2 (Pipeline.mem_restRefs_of main_arg2 (by decide) (by decide))).trans (entry_scales m c),
      ((h c).2 main_arg3 (Pipeline.mem_restRefs_of main_arg3 (by decide) (by decide))).trans (entry_indices m c)⟩)
    (run_main m ρ)

end Cert.KernelIdeal.RegionRun

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«128458_j43052752175485_2_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.Spec.lean ====
/-
  What both programs compute, on the extended reals.

  The inputs are a matrix of targets (500000 rows of 128 entries), a table of bases (10000 rows of 128 entries), a
  scale (128 entries) and a list of 64 index words. Only index word 1 matters. It selects ONE row of the table: a
  word that is negative when read signed counts from the table's end (10000 is added to it, in 32-bit arithmetic), and
  the outcome, read signed, is clamped into 0 … 9999. The weight column has entry k equal to that row's entry k times
  the scale's entry k, and the result's entry n is the sum over k of targets(n, k) times weight k.

  One program multiplies the selected row by the scale first and the targets by the outcome; the other multiplies the
  targets by the scale first and the outcome by the selected row. Term by term that is t · (b · s) against (t · s) · b,
  equal on the extended reals because their multiplication is commutative and associative; no entry need be finite.
-/
import Idealize.ShloMosaic.PureOps.Ideal
import Idealize.ShloMosaic.Lib.ValueIdx

noncomputable section

namespace Cert.Recompose

open Idealize.ShloMosaic Idealize.ShloMosaic.ValueIdx

/-- An index word with a negative value counted from the end of the table's 10000 rows: `w + 10000` (in 32-bit
    arithmetic) when `w`, read signed, is negative, else `w`. -/
def wrapWord (w : BitVec 32) : BitVec 32 :=
  Scalar.select (IntOp.cmpi .slt w 0#32) (IntOp.addi w 10000#32) w

/-- The table row an index word selects: the wrapped word, read signed, clamped into `0 … 9999`. -/
def rowOf (w : BitVec 32) : Fin 10000 := ⟨min (wrapWord w).toInt.toNat 9999, by omega⟩

/-- Entry `k` of the weight column: the selected row's entry `k` times the scale's. -/
def weight (bases : (⟨2, ![10000, 128]⟩ : Shape).Idx → EReal) (scale : (⟨1, ![128]⟩ : Shape).Idx → EReal)
    (w : BitVec 32) (k : Fin 128) : EReal :=
  bases (ix2 (rowOf w) k) * scale (ix1 k)

/-- THE RESULT: entry `n` is the sum over `k` of `targets (n, k)` times weight `k`. -/
def recomposed (targets : (⟨2, ![500000, 128]⟩ : Shape).Idx → EReal) (bases : (⟨2, ![10000, 128]⟩ : Shape).Idx → EReal)
    (scale : (⟨1, ![128]⟩ : Shape).Idx → EReal) (w : BitVec 32) : (⟨2, ![500000, 1]⟩ : Shape).Idx → EReal :=
  fun i => ∑ k : Fin 128, targets (ix2 ⟨(i 0).val, idx2_lt0 i⟩ k) * weight bases scale w k

/-- Scaling the targets and then projecting on the row is projecting on the scaled row: each term is
    `(t · s) · b = t · (b · s)`. -/
theorem scale_then_project (t b s : Fin 128 → EReal) :
    ∑ k, (t k * s k) * b k = ∑ k, t k * (b k * s k) :=
  Finset.sum_congr rfl fun k _ => by rw [mul_assoc, mul_comm (s k) (b k)]

end Cert.Recompose

end
-- ==== Proof.KernelValue.lean ====
/-
  The kernel's result array, at the ideal instance, is the specification.

  At grid point `t` the body multiplies rows 10000·t … 10000·t + 9999 of the targets by the weight column and the
  pipeline writes the 10000 products back as block `t` of the result; the 50 blocks fill the result's 500000 rows, so
  the array ends as the whole matrix-times-column product. The weight column, as the region finds it, is what the
  host operations left: the table's row selected by index word 1 — wrapped, then clamped by the dynamic slice —
  times the scale, transposed to a column.
-/
import proofs.«128458_j43052752175485_2_alg».proof.Proof.RegionRunIdeal
import proofs.«128458_j43052752175485_2_alg».proof.Proof.LibPlainProduct
import proofs.«128458_j43052752175485_2_alg».proof.Proof.Spec
import Idealize.ShloMosaic.Lib.Pipeline.Value
import Idealize.ShloMosaic.Lib.StableHlo.Run
import Idealize.ShloMosaic.Lib.DynamicIndex
import Idealize.ShloMosaic.PureOps.Ideal.Laws

set_option maxRecDepth 16384

noncomputable section

namespace Cert.KernelIdeal.KernelValue

open Cert.KernelIdeal Cert.KernelIdeal.Gen Cert.KernelIdeal.RegionRun Cert.Recompose
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## One block -/

/-- A matrix of 128 columns times a column of 128 entries. -/
def matvec (A : S500000x128.Idx → EReal) (W : S128x1.Idx → EReal) : S500000x1.Idx → EReal :=
  fun i => ∑ k : Fin 128, A (ix2 ⟨(i 0).val, idx2_lt0 i⟩ k) * W (ix2 k (0 : Fin 1))

/-- The targets and the weight column as the region finds them, as arrays of extended reals. -/
abbrev targetsIn (c : Dev nD) : S500000x128.Idx → EReal := atEntry m c main_arg0
abbrev weightsIn (c : Dev nD) : S128x1.Idx → EReal := atEntry m c main_v8

theorem zeros : (![0, 0] : Fin 2 → Nat) = fun _ => 0 := funext fun a => by fin_cases a <;> rfl

/-- The body's product at row `p` of a block: the matrix unit's product into zeros is the plain sum over the 128
    columns (the cast of the weight column to its own shape is the identity). -/
theorem product_at (rows : Vec Ideal S10000x128 .f32) (weights : Vec Ideal S128x1 .f32) (p : Fin 10000) :
    k0_pay1 (F := Ideal) rows weights (ix2 p (0 : Fin 1)) = ∑ k : Fin 128, rows (ix2 p k) * weights (ix2 k (0 : Fin 1)) := by
  unfold k0_pay1
  rw [shapeCast_self]
  exact PlainProduct.matmul_zero_at 10000 128 1 rows weights p 0

/-- The same at any index of the block. -/
theorem block_product (rows : Vec Ideal S10000x128 .f32) (weights : Vec Ideal S128x1 .f32) (j : S10000x1.Idx) :
    k0_pay1 (F := Ideal) rows weights j
      = ∑ k : Fin 128, rows (ix2 ⟨(j 0).val, idx2_lt0 j⟩ k) * weights (ix2 k (0 : Fin 1)) := by
  obtain ⟨p, q, rfl⟩ : ∃ (p : Fin 10000) (q : Fin 1), j = ix2 p q := ⟨j 0, j 1, eq_ix2 j⟩
  obtain rfl : q = 0 := Subsingleton.elim _ _
  exact product_at rows weights p

/-! ## From blocks to the array -/

/-- The printed index maps over the 50 points: the rows' window and the result's window are at block `t` of their
    first axis, the weights' window stays at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the targets and the weight column as the region finds
    them. -/
theorem flushed_eq (c : Dev nD) (t : Fin cfg0.N) :
    (pdata m 0 c).flushed 2 t = ((cfg0.win 2).blk t).view.read (Elt Ideal)
      (matvec (targetsIn m c) (weightsIn m c)) := by
  show (cfg0.win 2).cut (grid0.coords t) ((pdata m 0 c).after 2 t) = _
  rw [after_out]
  unfold productBlock
  rw [View.canon_unit_zero zeros]
  simp only [View.ld_unit_zero (S := S10000x128) zeros, View.ld_unit_zero (S := S128x1) zeros]
  obtain ⟨e0, e1, e2, e3, e4, e5⟩ := index_facts t
  refine funext fun (j : S10000x1.Idx) => ?_
  refine (block_product (blockAt m c 0 t) (blockAt m c 1 t) j).trans ?_
  show _ = ∑ k : Fin 128, targetsIn m c (ix2 ⟨((((cfg0.win 2).blk t).view.emb j) 0).val,
      idx2_lt0 (((cfg0.win 2).blk t).view.emb j)⟩ k) * weightsIn m c (ix2 k (0 : Fin 1))
  refine Finset.sum_congr rfl fun k _ => ?_
  have hr : blockAt m c 0 t (ix2 ⟨(j 0).val, idx2_lt0 j⟩ k)
      = targetsIn m c (ix2 ⟨((((cfg0.win 2).blk t).view.emb j) 0).val, idx2_lt0 (((cfg0.win 2).blk t).view.emb j)⟩ k) := by
    show atEntry m c main_arg0 (((cfg0.win 0).blk t).view.emb (ix2 ⟨(j 0).val, idx2_lt0 j⟩ k)) = _
    refine congrArg (atEntry m c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  have hw : blockAt m c 1 t (ix2 k (0 : Fin 1)) = weightsIn m c (ix2 k (0 : Fin 1)) := by
    show atEntry m c main_v8 (((cfg0.win 1).blk t).view.emb (ix2 k (0 : Fin 1))) = _
    refine congrArg (atEntry m c main_v8) (funext fun a => Fin.ext ?_)
    match a with
    | ⟨0, _⟩ =>
      show win0_1.index t (0 : Fin 2) * 128 + 1 * k.val = k.val
      omega
    | ⟨1, _⟩ =>
      show win0_1.index t (1 : Fin 2) * 1 + 1 * 0 = 0
      omega
  rw [hr, hw]

/-- An index of the result is in point `t`'s block iff each coordinate is in the block's range on its axis. -/
theorem mem_block (t : Fin cfg0.N) (i : S500000x1.Idx) :
    i ∈ ((cfg0.win 2).blk t).view.set ↔ ∀ a : Fin 2, win0_2.index t a * S10000x1.size a ≤ (i a).val
      ∧ (i a).val < win0_2.index t a * S10000x1.size a + S10000x1.size a := by
  show i ∈ ((View.whole main_v9).slice (win0_2.rect t)).set ↔ _
  rw [View.set_slice_whole, Rect.mem_set_unit]
  exact Iff.rfl

/-- Every row of the result is in some point's block: row `n` in that of point `n / 10000`. -/
theorem covered (i : S500000x1.Idx) :
    ∃ t : Fin cfg0.N, (cfg0.win 2).flush t = true ∧ i ∈ ((cfg0.win 2).blk t).view.set := by
  have hi0 : (i 0).val < 500000 := idx2_lt0 i
  have hi1 : (i 1).val < 1 := idx2_lt1 i
  have hN : cfg0.N = 50 := N_0
  let t : Fin cfg0.N := ⟨(i 0).val / 10000, by rw [hN]; omega⟩
  have ht : t.val = (i 0).val / 10000 := rfl
  obtain ⟨e0, e1, e2, e3, e4, e5⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 1 ≤ (i 1).val ∧ (i 1).val < win0_2.index t (1 : Fin 2) * 1 + 1
    omega

/-- THE RESULT ARRAY after the run: the targets times the weight column, both as the region finds them. -/
theorem final (c : Dev nD) :
    (pdata m 0 c).arrAt 2 cfg0.N = matvec (targetsIn m c) (weightsIn m c) :=
  (pdata m 0 c).arrAt_eq_of_cover 2 _ (fun t _ => flushed_eq m c t) covered

/-! ## The weight column as the region finds it -/

/-- The scalar the host cuts out of the index list — entry 1, as a list of one, viewed as a scalar — is index word 1. -/
theorem index_word_at (c : Dev nD) (i : S_.Idx) :
    shapeCast S_ (extractStridedSlice S1 ![1] (m ((c : Thread nD τ).loc main_arg3)) slices_S64_S1_1) shapeCasts_S1_S_ i
      = m ((c : Thread nD τ).loc main_arg3) (ix1 (1 : Fin 64)) := by
  rw [shapeCast_apply _ shapeCasts_S1_S_ i (ix1 (0 : Fin 1)) (by
      have h1 := (S1.rowMajor (ix1 (0 : Fin 1))).isLt
      have h2 := (S_.rowMajor i).isLt
      have e1 : S1.numel = 1 := by decide
      have e2 : S_.numel = 1 := by decide
      omega),
    extractStridedSlice_apply ![1] _ slices_S64_S1_1 (ix1 (0 : Fin 1)) (ix1 (1 : Fin 64))
      (fun a => by match a with | ⟨0, _⟩ => rfl)]

/-- The host operations leave in the weights' buffer: the dynamic slice of the table at some start indices, the first of
    which is index word 1 wrapped and read signed, times the scale repeated as a row, transposed to a column. (The
    second start index is never needed: the slice is as wide as the table, so its start on that axis is clamped to 0.) -/
theorem weights_entry (c : Dev nD) : ∃ st : Fin 2 → Int,
    st 0 = (wrapWord (m ((c : Thread nD τ).loc main_arg3) (ix1 (1 : Fin 64)))).toInt ∧
    @Eq (FVec Ideal S128x1 .f32) (atEntry m c main_v8)
      (transpose S128x1 [1, 0] (mulf (F := Ideal) (φ := .f32)
        (Host.dynamicSlice S1x128 (m ((c : Thread nD τ).loc main_arg1)) st sliceFits_S10000x128_S1x128)
        (broadcastInDim S1x128 ![1] bcast_S128_S1x128_1 (m ((c : Thread nD τ).loc main_arg2)))) transposes_S1x128_S128x1_1_0) := by
  refine ⟨?st, ?h0, ?h1⟩
  case h1 => dsimp only [atEntry, hostOps0]; after_results
  case h0 =>
    dsimp only
    repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
    show BitVec.toInt ((cast _ (HloOp.result _ _ (Proc.devRef .tc main_v4)) : S_.Idx → BitVec 32) _) = _
    repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
    show (wrapWord (shapeCast S_ (extractStridedSlice S1 ![1] (m ((c : Thread nD τ).loc main_arg3)) slices_S64_S1_1)
      shapeCasts_S1_S_ (Shape.Idx.first h_S_))).toInt = _
    rw [index_word_at]

/-- ENTRY `k` OF SUCH A COLUMN is the specification's weight: the selected row's entry `k` times the scale's. The
    dynamic slice clamps its first start into `0 … 9999` exactly as the specification's row does, and its second to 0. -/
theorem weight_column_at (x1 : FVec Ideal S10000x128 .f32) (x2 : FVec Ideal S128 .f32) (w : BitVec 32) (st : Fin 2 → Int)
    (h0 : st 0 = (wrapWord w).toInt) (k : Fin 128) :
    transpose S128x1 [1, 0] (mulf (F := Ideal) (φ := .f32) (Host.dynamicSlice S1x128 x1 st sliceFits_S10000x128_S1x128)
        (broadcastInDim S1x128 ![1] bcast_S128_S1x128_1 x2)) transposes_S1x128_S128x1_1_0 (ix2 k (0 : Fin 1))
      = weight x1 x2 w k := by
  rw [transpose_apply [1, 0] _ transposes_S1x128_S128x1_1_0 (ix2 k (0 : Fin 1)) (ix2 (0 : Fin 1) k)
    (fun b => by match b with | ⟨0, _⟩ => rfl | ⟨1, _⟩ => rfl)]
  show Host.dynamicSlice S1x128 x1 st sliceFits_S10000x128_S1x128 (ix2 (0 : Fin 1) k)
      * broadcastInDim S1x128 ![1] bcast_S128_S1x128_1 x2 (ix2 (0 : Fin 1) k) = _
  have hrow := (rowOf w).isLt
  have hslice : S10000x128.Slices ![(rowOf w).val, 0] S1x128 :=
    ⟨rfl, fun a => by
      match a with
      | ⟨0, _⟩ => show (rowOf w).val + 1 ≤ 10000; omega
      | ⟨1, _⟩ => show 0 + 128 ≤ 128; omega⟩
  rw [Host.dynamicSlice_eq_extractStridedSlice_of_clamp S1x128 x1 st sliceFits_S10000x128_S1x128
      ![(rowOf w).val, 0] (fun a => by
        match a with
        | ⟨0, _⟩ =>
          show (min (max (st 0) 0) ((10000 - 1 : Nat) : Int)).toNat = min (wrapWord w).toInt.toNat 9999
          rw [h0]; omega
        | ⟨1, _⟩ => show (min (max (st 1) 0) ((128 - 128 : Nat) : Int)).toNat = 0; omega) hslice,
    extractStridedSlice_apply _ x1 hslice (ix2 (0 : Fin 1) k) (ix2 (rowOf w) k)
      (fun a => by
        match a with
        | ⟨0, _⟩ => show (rowOf w).val = (rowOf w).val + 0; omega
        | ⟨1, _⟩ => show k.val = 0 + k.val; omega),
    broadcastInDim_apply ![1] bcast_S128_S1x128_1 x2 (ix2 (0 : Fin 1) k) (ix1 k) (fun a => by
      match a with
      | ⟨0, _⟩ => show k.val = if (128 : Nat) = 1 then 0 else k.val; rw [if_neg (by decide)])]
  rfl

/-- Entry `k` of the weight column as the region finds it. -/
theorem weightsIn_apply (c : Dev nD) (k : Fin 128) :
    weightsIn m c (ix2 k (0 : Fin 1))
      = weight (m ((c : Thread nD τ).loc main_arg1)) (m ((c : Thread nD τ).loc main_arg2))
          (m ((c : Thread nD τ).loc main_arg3) (ix1 (1 : Fin 64))) k := by
  obtain ⟨st, h0, e⟩ := weights_entry m c
  show (atEntry m c main_v8 : FVec Ideal S128x1 .f32) (ix2 k (0 : Fin 1)) = _
  rw [e]
  exact weight_column_at _ _ _ st h0 k

/-! ## The kernel's result is the specification -/

/-- The targets times the weight column, both as the region finds them, is the specification of the launch contents. -/
theorem matvec_entry (c : Dev nD) :
    matvec (targetsIn m c) (weightsIn m c)
      = recomposed (m ((c : Thread nD τ).loc main_arg0)) (m ((c : Thread nD τ).loc main_arg1))
          (m ((c : Thread nD τ).loc main_arg2)) (m ((c : Thread nD τ).loc main_arg3) (ix1 (1 : Fin 64))) := by
  have ht : targetsIn m c = m ((c : Thread nD τ).loc main_arg0) := entry_targets m c
  rw [ht]
  funext i
  unfold matvec recomposed
  exact Finset.sum_congr rfl fun k _ => by rw [weightsIn_apply]

/-- THE KERNEL'S RUN, READ: every weakly fair execution of @main terminates with the result array at the specification
    of the argument arrays and the argument arrays as launched. -/
theorem run : θ_run defs (onTc (τ := τ) (main (F := Ideal))) ⟨m, fun _ => 0, ρ⟩ fun r => ∀ c : Dev nD,
      r.2.mem ((c : Thread nD τ).loc main_v9)
        = recomposed (m ((c : Thread nD τ).loc main_arg0)) (m ((c : Thread nD τ).loc main_arg1))
            (m ((c : Thread nD τ).loc main_arg2)) (m ((c : Thread nD τ).loc main_arg3) (ix1 (1 : Fin 64)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 2).trans ((final m c).trans (matvec_entry m c)),
      ((h c).1 0).trans (((pdata m 0 c).arrAt_in 0 rfl _).trans ((pdata_A m c 0).trans (entry_targets m c))),
      ((h c).2 main_arg1 (Pipeline.mem_restRefs_of main_arg1 (by decide) (by decide))).trans (entry_bases m c),
      ((h c).2 main_arg2 (Pipeline.mem_restRefs_of main_arg2 (by decide) (by decide))).trans (entry_scales m c),
      ((h c).2 main_arg3 (Pipeline.mem_restRefs_of main_arg3 (by decide) (by decide))).trans (entry_indices m c)⟩)
    (run_main m ρ)

end Cert.KernelIdeal.KernelValue

end
-- ==== Proof.RefValue.lean ====
/-
  The reference's result, read one operation at a time, is the specification.

  The reference wraps and clamps ALL 64 index words, gathers the 64 selected rows of the table, scales every row of
  the targets, multiplies the scaled targets by the transposed gathered rows, and keeps column 1 of the 500000 x 64
  outcome. Column 1 reads gathered row 1 only, which is the table's row selected by index word 1.
-/
import proofs.«128458_j43052752175485_2_alg».proof.Proof.Gen.ReferenceIdeal.Read
import proofs.«128458_j43052752175485_2_alg».proof.Proof.Spec

noncomputable section

namespace Cert.ReferenceIdeal.RefValue

open Cert.ReferenceIdeal Cert.ReferenceIdeal.Gen Cert.ReferenceIdeal.Read Cert.Recompose
open Idealize.ShloMosaic Idealize.ShloMosaic.ValueIdx

/-- Start index 1 of the gather is index word 1, wrapped. -/
theorem start_word (x3 : (⟨S64, .i32⟩ : BufTy).Contents (Elt Ideal)) :
    val_main_v5 (F := Ideal) x3 (ix2 (1 : Fin 64) (0 : Fin 1)) = wrapWord (x3 (ix1 (1 : Fin 64))) := by
  have e : idx_main_v5 (ix2 (1 : Fin 64) (0 : Fin 1)) = ix1 (1 : Fin 64) :=
    funext fun a => Fin.ext (by match a with | ⟨0, _⟩ => rfl)
  rw [val_main_v5_apply, e, val_main_v4_apply, val_main_v1_apply, val_main_v3_apply, val_main_v0_apply,
    val_main_v2_apply, val_main_c_apply, val_main_c_0_apply]
  rfl

/-- Gathered row 1 is the table's row that index word 1 selects: on the table's first axis the gather starts at the
    start index, read signed and clamped into `0 … 9999`, and on the second it reads the result's column. -/
theorem gathered_row (x1 : (⟨S10000x128, .f32⟩ : BufTy).Contents (Elt Ideal)) (x3 : (⟨S64, .i32⟩ : BufTy).Contents (Elt Ideal))
    (k : Fin 128) :
    val_main_v6 (F := Ideal) x1 x3 (ix2 (1 : Fin 64) k) = x1 (ix2 (rowOf (x3 (ix1 (1 : Fin 64)))) k) := by
  unfold val_main_v6 Host.gather
  refine congrArg x1 (funext fun a => Fin.ext ?_)
  match a with
  | ⟨0, _⟩ =>
    show gather_S10000x128_S64x1_S64x128_1_0_n_n_0_1_1128.start (ix2 (1 : Fin 64) k) (val_main_v5 (F := Ideal) x3) 0
      + gather_S10000x128_S64x1_S64x128_1_0_n_n_0_1_1128.batchCoord (ix2 (1 : Fin 64) k) 0
      + gather_S10000x128_S64x1_S64x128_1_0_n_n_0_1_1128.offCoord (ix2 (1 : Fin 64) k) 0 = (rowOf (x3 (ix1 (1 : Fin 64)))).val
    rw [GatherDims.batchCoord_eq_zero _ _ _ (by decide),
      GatherDims.offCoord_eq_zero _ _ _ (fun h => ((GatherDims.mem_sKept _ _).mp h).1 (by decide))]
    unfold GatherDims.start
    rw [dif_pos (show (0 : Fin S10000x128.rank) ∈ gather_S10000x128_S64x1_S64x128_1_0_n_n_0_1_1128.startIndexMap by decide)]
    have hsi : gather_S10000x128_S64x1_S64x128_1_0_n_n_0_1_1128.siIdx (ix2 (1 : Fin 64) k)
        ⟨List.idxOf (0 : Fin S10000x128.rank) gather_S10000x128_S64x1_S64x128_1_0_n_n_0_1_1128.startIndexMap,
          List.idxOf_lt_length_iff.2 (by decide)⟩ = ix2 (1 : Fin 64) (0 : Fin 1) := by
      funext b; refine Fin.ext ?_
      match b with
      | ⟨0, _⟩ => rfl
      | ⟨1, _⟩ => rfl
    rw [hsi, start_word]
    rfl
  | ⟨1, _⟩ =>
    show gather_S10000x128_S64x1_S64x128_1_0_n_n_0_1_1128.start (ix2 (1 : Fin 64) k) (val_main_v5 (F := Ideal) x3) 1
      + gather_S10000x128_S64x1_S64x128_1_0_n_n_0_1_1128.batchCoord (ix2 (1 : Fin 64) k) 1
      + gather_S10000x128_S64x1_S64x128_1_0_n_n_0_1_1128.offCoord (ix2 (1 : Fin 64) k) 1 = k.val
    rw [GatherDims.batchCoord_eq_zero _ _ _ (by decide)]
    unfold GatherDims.start GatherDims.offCoord
    rw [dif_neg (show ¬ (1 : Fin S10000x128.rank) ∈ gather_S10000x128_S64x1_S64x128_1_0_n_n_0_1_1128.startIndexMap by decide),
      dif_pos (show (1 : Fin S10000x128.rank) ∈ gather_S10000x128_S64x1_S64x128_1_0_n_n_0_1_1128.sKept by decide)]
    show 0 + 0 + k.val = k.val
    omega

/-- THE REFERENCE'S RESULT IS THE SPECIFICATION: entry `n` is column 1 of row `n` of the product, the sum over `k` of
    the scaled target `targets (n, k) · scale k` times gathered row 1 at `k`; term by term that is the specification's
    `targets (n, k) · (row k · scale k)`. -/
theorem result_eq (x0 : (⟨S500000x128, .f32⟩ : BufTy).Contents (Elt Ideal)) (x1 : (⟨S10000x128, .f32⟩ : BufTy).Contents (Elt Ideal))
    (x2 : (⟨S128, .f32⟩ : BufTy).Contents (Elt Ideal)) (x3 : (⟨S64, .i32⟩ : BufTy).Contents (Elt Ideal)) :
    val_main_v11 (F := Ideal) x0 x1 x2 x3 = recomposed x0 x1 x2 (x3 (ix1 (1 : Fin 64))) := by
  funext i
  obtain ⟨n, q, rfl⟩ : ∃ (n : Fin 500000) (q : Fin 1), i = ix2 n q := ⟨i 0, i 1, eq_ix2 i⟩
  obtain rfl : q = 0 := Subsingleton.elim _ _
  have e11 : idx_main_v11 (ix2 n (0 : Fin 1)) = ix2 n (1 : Fin 64) :=
    funext fun a => Fin.ext (by match a with | ⟨0, _⟩ => rfl | ⟨1, _⟩ => rfl)
  rw [val_main_v11_apply, e11, val_main_v10_apply]
  unfold recomposed weight
  refine (Finset.sum_congr rfl fun k _ => ?_).trans (scale_then_project (fun k => x0 (ix2 n k)) (fun k => x1 (ix2 (rowOf (x3 (ix1 (1 : Fin 64)))) k)) (fun k => x2 (ix1 k)))
  have el : lidx_main_v10 (ix2 n (1 : Fin 64)) k = ix2 n k :=
    funext fun a => Fin.ext (by match a with | ⟨0, _⟩ => rfl | ⟨1, _⟩ => rfl)
  have er : ridx_main_v10 (ix2 n (1 : Fin 64)) k = ix2 (1 : Fin 64) k :=
    funext fun a => Fin.ext (by match a with | ⟨0, _⟩ => rfl | ⟨1, _⟩ => rfl)
  have e8 : idx_main_v8 (ix2 n k) = ix2 (0 : Fin 1) k :=
    funext fun a => Fin.ext (by match a with | ⟨0, _⟩ => rfl | ⟨1, _⟩ => rfl)
  have e7 : idx_main_v7 (ix2 (0 : Fin 1) k) = ix1 k :=
    funext fun a => Fin.ext (by match a with | ⟨0, _⟩ => rfl)
  rw [el, er, gathered_row, val_main_v9_apply, val_main_v8_apply, e8, val_main_v7_apply, e7]
  rfl

end Cert.ReferenceIdeal.RefValue

end
-- ==== Proof.lean ====
/-
  The kernel computes, for 500000 rows of 128 targets, the product of each row with ONE weight column: the row of a
  table of bases that index word 1 selects (a negative word counted from the table's end, the outcome clamped into
  the table), scaled entry by entry. The reference scales the targets, multiplies them by ALL 64 selected rows and
  keeps column 1 of the outcome. On the extended reals both results are, at row n,

      sum over k of  targets(n, k) · bases(row, k) · scale(k),

  the kernel grouping each term as t · (b · s) and the reference as (t · s) · b: equal because multiplication of
  extended reals is commutative and associative, whatever the entries (finiteness of the inputs is not used), and
  for every index word, since both programs wrap and clamp it alike.

  The five claims: the word-level kernel and its idealization run to the end and leave the four argument arrays as
  launched (the launch of the one region, module by module the same proof at the two float instances); the
  reference's run is its generated one; the ideal pass rewrote nothing, so there is nothing to preserve; and the two
  idealized programs' results are the one specification of the argument arrays.
-/
import proofs.«128458_j43052752175485_2_alg».proof.Defs
import proofs.«128458_j43052752175485_2_alg».proof.Proof.Gen.Kernel
import proofs.«128458_j43052752175485_2_alg».proof.Proof.Gen.KernelIdeal
import proofs.«128458_j43052752175485_2_alg».proof.Proof.Gen.ReferenceIdeal
import proofs.«128458_j43052752175485_2_alg».proof.Proof.Gen.Pre_finite_inputs
import proofs.«128458_j43052752175485_2_alg».proof.Proof.Gen.ReferenceIdeal.Run
import proofs.«128458_j43052752175485_2_alg».proof.Proof.Gen.ReferenceIdeal.Read
import proofs.«128458_j43052752175485_2_alg».proof.Proof.RegionRunBits
import proofs.«128458_j43052752175485_2_alg».proof.Proof.RegionRunIdeal
import proofs.«128458_j43052752175485_2_alg».proof.Proof.KernelValue
import proofs.«128458_j43052752175485_2_alg».proof.Proof.RefValue

noncomputable section

namespace Cert.Proof

open Idealize.ShloMosaic Idealize.ShloMosaic.TcCoe Idealize.SL.Sem Idealize.ShloMosaic.ValueIdx

/-- The word-level kernel runs to the end with its arguments unchanged. -/
theorem frame_kernel : Cert.frame_Kernel := fun m ρ _ => Cert.Kernel.RegionRun.frame m ρ

/-- So does its idealization. -/
theorem frame_kernelIdeal : Cert.frame_KernelIdeal := fun m ρ _ => Cert.KernelIdeal.RegionRun.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the specification of the argument arrays: the kernel by its run read block by
    block, the reference by its run read operation by operation; the memories agree on the arguments. -/
theorem algebraic : Cert.algebraic_KernelIdeal_ReferenceIdeal := by
  intro m ρ m' ρ' _ hagree
  refine ⟨fun c => Cert.Recompose.recomposed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3) (ix1 (1 : Fin 64))),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
